-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.Spec.lean ====
/-
  The dense layer as one function of its three argument arrays.

  For a batch `x` of 4096 rows of 4096 features, a weight matrix `w` with one row per output feature and a
  bias vector `b`, the entry at row `p` and column `q` of the result is the inner product of row `p` of `x`
  with row `q` of `w`, plus `b q`:

      out[p, q] = (∑ k, x[p, k] · w[q, k]) + b[q].

  The contraction over the 4096 features may be carried out in eight consecutive stretches of 512 features
  each, the eight partial inner products added up afterwards: on the extended reals this is the same number,
  because only commutativity and associativity of `+` are used, which hold there without any finiteness
  assumption.
-/
import Idealize.ShloMosaic.PureOps.Ideal
import Idealize.ShloMosaic.Lib.ValueIdx
import proofs.«140926_j21706764714263_1_alg».proof.Proof.LibBlockSum

noncomputable section

open scoped BigOperators

namespace Cert.Dense

open Idealize.ShloMosaic Idealize.ShloMosaic.ValueIdx

/-- `out[p, q] = (∑ k, x[p, k] · w[q, k]) + b[q]`, over the extended reals. -/
def dense (X W : FVec Ideal ⟨2, ![4096, 4096]⟩ .f32) (B : FVec Ideal ⟨1, ![4096]⟩ .f32) :
    FVec Ideal ⟨2, ![4096, 4096]⟩ .f32 :=
  fun i => (∑ k : Fin 4096, X (ix2 (i 0) k) * W (ix2 (i 1) k)) + B (ix1 (i 1))

/-- Feature `d` of stretch `s` is feature `512 · s + d` of the whole contraction axis. -/
def feat (s : Fin 8) (d : Fin 512) : Fin 4096 := ⟨512 * s.val + d.val, by have := s.isLt; have := d.isLt; omega⟩

/-- A contraction over the 4096 features is the sum over the eight stretches of the contractions over the 512
    features of each stretch. -/
theorem sum_stretches {M : Type*} [AddCommMonoid M] (f : Fin 4096 → M) :
    ∑ k : Fin 4096, f k = ∑ s : Fin 8, ∑ d : Fin 512, f (feat s d) := by
  refine (Cert.BlockSum.sum_merged_of (n := 8) (d := 512) f (fun s d => f (feat s d)) fun s d => ?_)
  refine congrArg f (Fin.ext ?_)
  show d.val + 512 * s.val = 512 * s.val + d.val
  omega

end Cert.Dense

end
-- ==== Proof.RefValue.lean ====
/-
  The reference computes the dense layer.

  Its four host operations are a product of `x` with `w` contracting the feature axis of both, two broadcasts
  that spread the bias vector over the 4096 rows, and an addition.  Read at row `p` and column `q` they give
  `(∑ k, x[p, k] · w[q, k]) + b[q]`.
-/
import proofs.«140926_j21706764714263_1_alg».proof.Proof.Gen.ReferenceIdeal.Read
import proofs.«140926_j21706764714263_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result, as a function of its three arguments, is the dense layer. -/
theorem result_is_dense (X W : (⟨S4096x4096, .f32⟩ : BufTy).Contents (Elt Ideal))
    (B : (⟨S4096, .f32⟩ : BufTy).Contents (Elt Ideal)) :
    val_main_v3 (F := Ideal) X W B = Cert.Dense.dense X W B := by
  funext i
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 (i 1) k := fun k => funext fun a => Fin.ext (by
    match a with
    | ⟨0, _⟩ => rfl
    | ⟨1, _⟩ => rfl)
  have eb : idx_main_v1 (idx_main_v2 i) = ix1 (i 1) := funext fun a => Fin.ext (by
    match a with
    | ⟨0, _⟩ => rfl)
  rw [val_main_v3_apply, val_main_v0_apply, val_main_v2_apply, val_main_v1_apply]
  simp only [el, er, eb]
  rfl

end Cert.ReferenceIdeal.RefValue

end
-- ==== Proof.Pieces.lean ====
/-
  What one run of the kernel body leaves behind, as values.

  The body has three cases.  At the first of the eight contraction steps of an output block it resets the
  accumulator and then accumulates; at the six middle steps it only accumulates; at the last step it
  accumulates and then stores the accumulator plus the bias into the output block.  In every case what the
  accumulator holds afterwards is the accumulation's stored value over what it held before (the reset value,
  in the first case), and in the last case the output block holds the bias step's stored value over that.
  These statements hold for any interpretation of the floats.
-/
import proofs.«140926_j21706764714263_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- A block read or stored whole starts at offset zero on both axes. -/
theorem hz : (![0, 0] : Fin 2 → Nat) = fun _ => 0 := funext fun a => by fin_cases a <;> rfl

/-- A middle step leaves the accumulator at the accumulation over what it held. -/
theorem scratch_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread,
    View.ld_unit_zero (S := S1024x512) hz, View.ld_unit_zero (S := S1024x1024) hz]

/-- The first step leaves the accumulator at the accumulation over the reset value. -/
theorem scratch_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread,
    View.ld_unit_zero (S := S1024x512) hz, View.ld_unit_zero (S := S1024x1024) hz]

/-- The last step leaves the accumulator at the accumulation over what it held, -/
theorem scratch_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S1024x512) hz, View.ld_unit_zero (S := S1024x1024) hz]

/-- and the output block at the bias step over that accumulator. -/
theorem out_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x512) hz, View.ld_unit_zero (S := S1024x1024) hz, View.ld_unit_zero (S := S1x1024) hz]

end Cert.KernelIdeal.Pieces

end
-- ==== Proof.LibRowOps.lean ====
/-
  Row operations on a two-axis array, read at one entry.

  A matrix with `a` rows and `b` columns meets four operations whenever a quantity is computed per row and
  spread back over the row: the sum of a row (a reduction along the second axis), the column of per-row
  values viewed as an `a × 1` matrix, that column spread across the `b` columns, and a product of two matrices
  that contracts the second axis of both (each entry is the inner product of a row of the left operand
  with a row of the right one).  Each lemma says what the result holds at row `r` and column `c`.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

variable {α : Type}

/-- A vector of `a` entries viewed as an `a × 1` column holds entry `r` at `(r, 0)`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `a × 1` column spread over `b` columns holds, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the exact values the sum along the second axis, read at row `r`, is the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- `(l · rᵀ)[p, j] = ∑ k, l[p,k] · r[j,k]`: a product into the zero accumulator that contracts the second axis
    of both operands, so that its left operand index at output `i` and contraction position `q` is `(i 0, q)`
    and its right operand index is `(i 1, q)`. -/
theorem matmul_rows_zero_apply {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision) (l : FVec Ideal ⟨2, ![M, K]⟩ φ₁) (r : FVec Ideal ⟨2, ![N, K]⟩ φ₂)
    (p : Fin M) (j : Fin N) :
    matmul D prec l r (constant (F := Ideal) ⟨2, ![M, N]⟩ .f32 0x00000000#32) (ix2 p j)
      = ∑ k : Fin K, l (ix2 p k) * r (ix2 j k) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

end Cert.LibRowOps

end
-- ==== Proof.Payload.lean ====
/-
  The body's three stored values, read at one entry, over the extended reals.

  The kernel body stores three values.  The reset stores the zero block.  The accumulation stores, over what
  the 1024 × 1024 accumulator held, that block plus the product of a 1024 × 512 block of `x` with a 1024 × 512
  block of `w`, contracting the 512 features of both (the change of format of the two operands is the
  identity on the extended reals), so entry `(p, q)` becomes `acc[p, q] + ∑ d, x[p, d] · w[q, d]`.  The last
  step adds to every row of the accumulator the 1 × 1024 block of the bias: entry `(p, q)` becomes
  `acc[p, q] + b[0, q]`.
-/
import proofs.«140926_j21706764714263_1_alg».proof.Proof.Gen.KernelIdeal.Skeleton
import proofs.«140926_j21706764714263_1_alg».proof.Proof.LibRowOps
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The reset value is the zero word at every entry. -/
theorem reset_apply (y : S1024x1024.Idx) :
    k0_pay1 (F := Ideal) y = Ideal.ofBits .f32 0x00000000#32 := by
  unfold k0_pay1
  rw [shapeCast_self]
  rfl

/-- The left operand's coordinates in the block product: row `i 0`, feature `q`. -/
theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

theorem lhs_feat (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

/-- The right operand's coordinates: row `i 1`, feature `q`. -/
theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

theorem rhs_feat (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The accumulation at entry `(p, q)`: what the accumulator held there plus the inner product of row `p` of the
    block of `x` with row `q` of the block of `w`. -/
theorem accumulate_apply (x0 x1 : Vec Ideal S1024x512 .f32) (acc : Vec Ideal S1024x1024 .f32)
    (p q : Fin 1024) :
    k0_pay2 (F := Ideal) x0 x1 acc (ix2 p q) = acc (ix2 p q) + ∑ d : Fin 512, x0 (ix2 p d) * x1 (ix2 q d) := by
  unfold k0_pay2
  rw [shapeCast_self, addf_apply]
  refine congrArg (acc (ix2 p q) + ·) ?_
  exact Cert.LibRowOps.matmul_rows_zero_apply dot_S1024x512_S1024x512_S1024x1024_1_1_0_0_n_n rfl rfl
    lhs_row lhs_feat rhs_row rhs_feat none _ _ p q

/-- The last step at entry `(p, q)`: the accumulator's entry plus the bias block's entry of column `q`. -/
theorem add_bias_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  rw [addf_apply, shapeCast_self]
  refine congrArg (acc (ix2 p q) + ·) ?_
  refine broadcastTo_apply b broadcasts_S1x1024_S1024x1024 (ix2 p q) (ix2 (0 : Fin 1) q) fun ax => ?_
  match ax with
  | ⟨0, _⟩ => rfl
  | ⟨1, _⟩ => rfl

end Cert.KernelIdeal.Payload

end
-- ==== Proof.Scratch.lean ====
/-
  What the accumulator holds after each grid point, and what the last contraction step stores.

  Within the run of eight consecutive points `8 · g, …, 8 · g + 7` that belong to one output block, the
  accumulator is reset at the first point and receives at every point the product of that point's blocks of
  `x` and `w`.  So after point `t` its entry `(p, q)` is the zero word plus the sum, over the points
  `8 · (t / 8) + s` with `s ≤ t % 8`, of the inner products `∑ d, xblock[p, d] · wblock[q, d]` of those points'
  blocks.  At the last point of the run the output block is stored as that accumulator plus the bias block.
-/
import proofs.«140926_j21706764714263_1_alg».proof.Proof.Gen.KernelIdeal.Value
import proofs.«140926_j21706764714263_1_alg».proof.Proof.Pieces
import proofs.«140926_j21706764714263_1_alg».proof.Proof.Payload

noncomputable section

open scoped BigOperators

namespace Cert.KernelIdeal.Scratch

open Cert.KernelIdeal Cert.KernelIdeal.Gen Cert.KernelIdeal.Value Idealize.ShloMosaic Idealize.ShloMosaic.TcCoe
open Idealize.SL.Sem Idealize.ShloMosaic.ValueIdx

variable (m : (ℓ : Loc nD τ sig) → Buf (Elt Ideal) ℓ)

/-- The block of `x`, the block of `w` and the block of the bias the body is handed at a grid point. -/
def xrows (c : Dev nD) (n : ℕ) (h : n < cfg0.N) : Vec Ideal S1024x512 .f32 := iblk m c 0 ⟨n, h⟩
def wrows (c : Dev nD) (n : ℕ) (h : n < cfg0.N) : Vec Ideal S1024x512 .f32 := iblk m c 1 ⟨n, h⟩
def biasrow (c : Dev nD) (t : Fin cfg0.N) : Vec Ideal S1x1024 .f32 := iblk m c 2 t

/-- What grid point `n` adds to entry `i` of the accumulator: the inner product of row `i 0` of its block of `x`
    with row `i 1` of its block of `w` (zero past the grid, where nothing is added). -/
def step (c : Dev nD) (n : ℕ) (i : S1024x1024.Idx) : EReal :=
  if h : n < cfg0.N then ∑ d : Fin 512, xrows m c n h (ix2 (i 0) d) * wrows m c n h (ix2 (i 1) d) else 0

theorem step_of_lt (c : Dev nD) (n : ℕ) (h : n < cfg0.N) (i : S1024x1024.Idx) :
    step m c n i = ∑ d : Fin 512, xrows m c n h (ix2 (i 0) d) * wrows m c n h (ix2 (i 1) d) := dif_pos h

/-- The accumulation over blocks `x0`, `x1`, read at any entry. -/
theorem accumulate_at (x0 x1 : Vec Ideal S1024x512 .f32) (acc : Vec Ideal S1024x1024 .f32) (i : S1024x1024.Idx) :
    k0_pay2 (F := Ideal) x0 x1 acc i = acc i + ∑ d : Fin 512, x0 (ix2 (i 0) d) * x1 (ix2 (i 1) d) := by
  obtain ⟨p, q, rfl⟩ : ∃ (p q : Fin 1024), i = ix2 p q := ⟨i 0, i 1, eq_ix2 i⟩
  exact Payload.accumulate_apply x0 x1 acc p q

/-- At the first point of a run the accumulator ends at the zero word plus that point's product. -/
theorem first_point (c : Dev nD) (n : ℕ) (hn : n < cfg0.N) (h0 : n % 8 = 0) (acc : Vec Ideal S1024x1024 .f32)
    (i : S1024x1024.Idx) :
    scAt0_0 m c n hn acc i = Ideal.ofBits .f32 0x00000000#32 + step m c n i := by
  have h1 : ¬ n % 8 = 7 := by omega
  unfold scAt0_0
  rw [dif_pos h0, dif_neg h1, Pieces.scratch_A, accumulate_at, Payload.reset_apply, step_of_lt m c n hn]
  rfl

/-- At every later point of a run the accumulator ends at what it held plus that point's product. -/
theorem later_point (c : Dev nD) (n : ℕ) (hn : n < cfg0.N) (h0 : ¬ n % 8 = 0) (acc : Vec Ideal S1024x1024 .f32)
    (i : S1024x1024.Idx) :
    scAt0_0 m c n hn acc i = acc i + step m c n i := by
  unfold scAt0_0
  rw [dif_neg h0]
  by_cases h1 : n % 8 = 7
  · rw [dif_pos h1, Pieces.scratch_C, accumulate_at, step_of_lt m c n hn]
    rfl
  · rw [dif_neg h1, Pieces.scratch_B, accumulate_at, step_of_lt m c n hn]
    rfl

/-- THE ACCUMULATOR after point `t`: the zero word plus the products of the points of `t`'s run up to `t`. -/
theorem accumulator_after (c : Dev nD) (t : Fin cfg0.N) (i : S1024x1024.Idx) :
    (outsAt0 m c t.val t.isLt).2 i
      = Ideal.ofBits .f32 0x00000000#32 + ∑ s ∈ Finset.range (t.val % 8 + 1), step m c (8 * (t.val / 8) + s) i := by
  rw [soutsAt0_0_eq m c t]
  exact Pipeline.accAt_add_apply (β := EReal) (fun n h => scAt0_0 m c n h (VS0_0.read (Elt Ideal) VS0_0.junk)) (scAt0_0 m c)
    (fun _ => Ideal.ofBits .f32 0x00000000#32) (step m c) (8 * (t.val / 8)) 7
    (fun h i => first_point m c _ h (by omega) _ i)
    (fun n h acc i hb he => later_point m c n h (by omega) acc i)
    (t.val % 8) (by omega) _ i

/-- THE OUTPUT BLOCK at the last point of a run: the accumulator after that point plus the bias block's row. -/
theorem output_at_last (c : Dev nD) (t : Fin cfg0.N) (h7 : t.val % 8 = 7) (p q : Fin 1024) :
    (outsAt0 m c t.val t.isLt).1 (ix2 p q)
      = (outsAt0 m c t.val t.isLt).2 (ix2 p q) + biasrow m c t (ix2 (0 : Fin 1) q) := by
  have h0 : ¬ t.val % 8 = 0 := by omega
  rw [outsAt0_C m c t h0 h7]
  dsimp only
  rw [Pieces.out_C, Pieces.scratch_C, Payload.add_bias_apply]
  rfl

end Cert.KernelIdeal.Scratch

end
-- ==== Proof.Blocks.lean ====
/-
  The blocks the kernel body is handed, read at one entry, are entries of the argument arrays.

  The grid has 4 × 4 × 8 points, numbered `t = 32 · r + 8 · s + j` with `r` the block row of the output,
  `s` its block column and `j` the contraction step.  At point `t` the body is handed rows
  `1024 · r …` and features `512 · j …` of `x`, rows `1024 · s …` and the same features of `w`, and columns
  `1024 · s …` of the bias viewed as one row; the output block is rows `1024 · r …`, columns `1024 · s …`.
  In terms of `t`: `r = t / 32`, `s = t / 8 % 4`, `j = t % 8`.
-/
import proofs.«140926_j21706764714263_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Where each window's block sits at grid point `t`, on each axis, in blocks. -/
theorem block_position : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- Entry `(p, d)` of the block of `x` at point `t` is `x[1024 · (t / 32) + p, 512 · (t % 8) + d]`. -/
theorem x_block (c : Dev nD) (t : Fin cfg0.N) (p : Fin 1024) (d : Fin 512) (P K : Fin 4096)
    (hP : P.val = 1024 * (t.val / 32) + p.val) (hK : K.val = 512 * (t.val % 8) + d.val) :
    (iblk m c 0 t : Vec F S1024x512 .f32) (ix2 p d) = m ((c : Thread nD τ).loc main_arg0) (ix2 P K) := by
  obtain ⟨e0, e1, -⟩ := block_position t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = P.val; omega
  | ⟨1, _⟩ => show win0_0.index t (1 : Fin 2) * 512 + 1 * d.val = K.val; omega

/-- Entry `(q, d)` of the block of `w` at point `t` is `w[1024 · (t / 8 % 4) + q, 512 · (t % 8) + d]`. -/
theorem w_block (c : Dev nD) (t : Fin cfg0.N) (q : Fin 1024) (d : Fin 512) (Q K : Fin 4096)
    (hQ : Q.val = 1024 * (t.val / 8 % 4) + q.val) (hK : K.val = 512 * (t.val % 8) + d.val) :
    (iblk m c 1 t : Vec F S1024x512 .f32) (ix2 q d) = m ((c : Thread nD τ).loc main_arg1) (ix2 Q K) := by
  obtain ⟨-, -, e0, e1, -⟩ := block_position t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * q.val = Q.val; omega
  | ⟨1, _⟩ => show win0_1.index t (1 : Fin 2) * 512 + 1 * d.val = K.val; omega

/-- The bias as the region finds it: the length-4096 vector viewed as one row. -/
theorem bias_row (c : Dev nD) :
    (V m c main_v0 : S1x4096.Idx → Elt F .f32)
      = shapeCast S1x4096 (m ((c : Thread nD τ).loc main_arg2)) shapeCasts_S4096_S1x4096 := by
  dsimp only [Gen.V, Gen.hostOps0]
  after_results
  rfl

/-- Entry `(0, q)` of the block of the bias at point `t` is `b[1024 · (t / 8 % 4) + q]`. -/
theorem bias_block (c : Dev nD) (t : Fin cfg0.N) (q : Fin 1024) (Q : Fin 4096)
    (hQ : Q.val = 1024 * (t.val / 8 % 4) + q.val) :
    (iblk m c 2 t : Vec F S1x1024 .f32) (ix2 (0 : Fin 1) q) = m ((c : Thread nD τ).loc main_arg2) (ix1 Q) := by
  obtain ⟨-, -, -, -, e0, e1, -⟩ := block_position t
  unfold iblk
  rw [View.read_apply]
  show V m c main_v0 _ = _
  rw [bias_row]
  refine shapeCast_apply _ shapeCasts_S4096_S1x4096 _ (ix1 Q) ?_
  rw [Shape.rowMajor_val_one, Shape.rowMajor_val_two]
  show Q.val = (win0_2.index t (0 : Fin 2) * 1 + 1 * 0) * 4096 + (win0_2.index t (1 : Fin 2) * 1024 + 1 * q.val)
  omega

end Cert.KernelIdeal.Blocks

end
-- ==== Proof.Final.lean ====
/-
  The kernel's result array is the dense layer of its three arguments.

  The output block of rows `1024 · r …` and columns `1024 · s …` is written back once, after the last of the
  eight contraction steps of its run.  What is written there at entry `(p, q)` is the zero word, plus the eight
  inner products over the eight stretches of 512 features of row `1024 · r + p` of `x` with row `1024 · s + q` of
  `w`, plus the bias entry `1024 · s + q`: the eight stretches make up the whole feature axis, so this is the
  dense layer's entry.  The sixteen output blocks tile the 4096 × 4096 result.
-/
import proofs.«140926_j21706764714263_1_alg».proof.Proof.Scratch
import proofs.«140926_j21706764714263_1_alg».proof.Proof.Blocks
import proofs.«140926_j21706764714263_1_alg».proof.Proof.Spec
import Idealize.ShloMosaic.PureOps.Ideal.Laws

noncomputable section

open scoped BigOperators

namespace Cert.KernelIdeal.Final

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The three argument arrays as launched: the batch, the weights, the bias. -/
def xs (c : Dev nD) : FVec Ideal ⟨2, ![4096, 4096]⟩ .f32 := m ((c : Thread nD τ).loc main_arg0)
def ws (c : Dev nD) : FVec Ideal ⟨2, ![4096, 4096]⟩ .f32 := m ((c : Thread nD τ).loc main_arg1)
def bs (c : Dev nD) : FVec Ideal ⟨1, ![4096]⟩ .f32 := m ((c : Thread nD τ).loc main_arg2)

/-- The dense layer of the three argument arrays as launched. -/
def result (c : Dev nD) : Buf (Elt Ideal) ((c : Thread nD τ).loc main_v1) :=
  Cert.Dense.dense (xs m c) (ws m c) (bs m c)

/-- One of the eight stretches: the product that point `8 · g + s` adds at entry `(p, q)` is the inner product
    over stretch `s` of the rows `P` of `x` and `Q` of `w` its blocks are cut from. -/
theorem step_is_stretch (c : Dev nD) (t : Fin cfg0.N) (s : Fin 8) (p q : Fin 1024) (P Q : Fin 4096)
    (hP : P.val = 1024 * (t.val / 32) + p.val) (hQ : Q.val = 1024 * (t.val / 8 % 4) + q.val) :
    Scratch.step m c (8 * (t.val / 8) + s.val) (ix2 p q)
      = ∑ d : Fin 512, xs m c (ix2 P (Cert.Dense.feat s d)) * ws m c (ix2 Q (Cert.Dense.feat s d)) := by
  have hN : cfg0.N = 128 := N_0
  have ht := t.isLt
  have hs := s.isLt
  have hn : 8 * (t.val / 8) + s.val < cfg0.N := by omega
  rw [Scratch.step_of_lt m c _ hn]
  refine Finset.sum_congr rfl fun d _ => ?_
  exact congrArg₂ (fun a b : EReal => a * b)
    (Blocks.x_block m c ⟨_, hn⟩ p d P (Cert.Dense.feat s d) (by show P.val = 1024 * ((8 * (t.val / 8) + s.val) / 32) + p.val; omega)
      (by show 512 * s.val + d.val = 512 * ((8 * (t.val / 8) + s.val) % 8) + d.val; omega))
    (Blocks.w_block m c ⟨_, hn⟩ q d Q (Cert.Dense.feat s d) (by show Q.val = 1024 * ((8 * (t.val / 8) + s.val) / 8 % 4) + q.val; omega)
      (by show 512 * s.val + d.val = 512 * ((8 * (t.val / 8) + s.val) % 8) + d.val; omega))

/-- The bias block's entry of column `q` at point `t` is the bias entry `Q` of the output column it belongs to. -/
theorem bias_entry (c : Dev nD) (t : Fin cfg0.N) (q : Fin 1024) (Q : Fin 4096)
    (hQ : Q.val = 1024 * (t.val / 8 % 4) + q.val) :
    Scratch.biasrow m c t (ix2 (0 : Fin 1) q) = bs m c (ix1 Q) :=
  Blocks.bias_block m c t q Q hQ

/-- WHAT A WRITE-BACK WRITES is its block of the dense layer. -/
theorem flushed_is_dense (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : cfg0.N = 128 := N_0
  have ht := t.isLt
  obtain ⟨-, -, -, -, -, -, e0, e1⟩ := Blocks.block_position t
  rw [flushed3]
  funext y
  have hy0 : (y 0).val < 1024 := (y 0).isLt
  have hy1 : (y 1).val < 1024 := (y 1).isLt
  rw [View.read_apply]
  let p : Fin 1024 := ⟨(y 0).val, hy0⟩
  let q : Fin 1024 := ⟨(y 1).val, hy1⟩
  let P : Fin 4096 := ⟨1024 * (t.val / 32) + p.val, by show 1024 * (t.val / 32) + (y 0).val < 4096; omega⟩
  let Q : Fin 4096 := ⟨1024 * (t.val / 8 % 4) + q.val, by show 1024 * (t.val / 8 % 4) + (y 1).val < 4096; omega⟩
  have hemb : ((cfg0.win 3).blk t).view.emb y = ix2 P Q := by
    funext a; apply Fin.ext
    match a with
    | ⟨0, _⟩ => show win0_3.index t (0 : Fin 2) * 1024 + 1 * (y 0).val = 1024 * (t.val / 32) + (y 0).val; omega
    | ⟨1, _⟩ => show win0_3.index t (1 : Fin 2) * 1024 + 1 * (y 1).val = 1024 * (t.val / 8 % 4) + (y 1).val; omega
  have hy : y = ix2 p q := funext fun a => Fin.ext (by
    match a with
    | ⟨0, _⟩ => rfl
    | ⟨1, _⟩ => rfl)
  rw [hemb]
  show (outsAt0 m c t.val t.isLt).1 y = Cert.Dense.dense _ _ _ (ix2 P Q)
  rw [hy, Scratch.output_at_last m c t h7 p q, Scratch.accumulator_after m c t (ix2 p q), h7,
    bias_entry m c t q Q rfl, Ideal.ofBits_zero_f32, zero_add, Finset.sum_range]
  unfold Cert.Dense.dense
  rw [Cert.Dense.sum_stretches]
  refine congrArg (· + _) ?_
  refine Finset.sum_congr rfl fun s _ => ?_
  exact step_is_stretch m c t s p q P Q rfl rfl

/-- An entry of the result lies in point `t`'s output block exactly when each coordinate is in the block's range. -/
theorem mem_block (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the result lies in the block some write-back writes: that of block row `i 0 / 1024` and block
    column `i 1 / 1024`, written at the last contraction step. -/
theorem covered (i : S4096x4096.Idx) :
    ∃ t : Fin cfg0.N, (cfg0.win 3).flush t = true ∧ i ∈ ((cfg0.win 3).blk t).view.set := by
  have hN : cfg0.N = 128 := N_0
  have hi0 : (i 0).val < 4096 := (i 0).isLt
  have hi1 : (i 1).val < 4096 := (i 1).isLt
  let t : Fin cfg0.N := ⟨32 * ((i 0).val / 1024) + 8 * ((i 1).val / 1024) + 7, by omega⟩
  have htv : t.val = 32 * ((i 0).val / 1024) + 8 * ((i 1).val / 1024) + 7 := rfl
  obtain ⟨-, -, -, -, -, -, e0, e1⟩ := Blocks.block_position t
  refine ⟨t, (flush0_3 t).mpr (by omega), ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE RESULT ARRAY after the run is the dense layer of the arguments. -/
theorem final (c : Dev nD) : (dats m 0 c).arrAt 3 cfg0.N = result m c :=
  (dats m 0 c).arrAt_eq_of_cover 3 (result m c) (flushed_is_dense m c) covered

/-- The kernel's run: every weakly fair execution terminates with the result array at the dense layer of the
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.lean ====
/-
  A dense layer `out = x · wᵀ + b` on 4096 × 4096 operands, computed by a kernel that tiles the output into
  sixteen 1024 × 1024 blocks and the 4096 features into eight stretches of 512, against the reference that
  computes the whole product at once.

  Over the extended reals the kernel's entry `(P, Q)` is
      (0 + ∑ s < 8, ∑ d < 512, x[P, 512 s + d] · w[Q, 512 s + d]) + b[Q]
  — an accumulator reset to zero at the first stretch, one block product added per stretch, the bias added after
  the last — and the reference's is `(∑ k < 4096, x[P, k] · w[Q, k]) + b[Q]`.  The change of the operands' format
  before the block product is the identity on the extended reals, and the two sums agree because the eight
  stretches make up the feature axis and `+` is commutative and associative; no cancellation and no
  distributivity enter, so the finiteness of the inputs is never used.

  The modules: `Spec` (the dense layer as one function, and the sum over stretches), `RefValue` (the reference
  is that function), `Pieces` and `Payload` (what one run of the body stores, as values and entry by entry),
  `Blocks` (the blocks the body is handed are entries of the arguments), `Scratch` (the accumulator after each
  grid point), `Final` (the result array).  The idealization rewrote no operation, so the kernel and its
  idealization are the same text and the preservation claim is trivial.
-/
import proofs.«140926_j21706764714263_1_alg».proof.Defs
import proofs.«140926_j21706764714263_1_alg».proof.Proof.Gen.Kernel
import proofs.«140926_j21706764714263_1_alg».proof.Proof.Gen.Kernel.Skeleton
import proofs.«140926_j21706764714263_1_alg».proof.Proof.Gen.Kernel.Launch
import proofs.«140926_j21706764714263_1_alg».proof.Proof.Gen.Kernel.Points
import proofs.«140926_j21706764714263_1_alg».proof.Proof.Gen.Kernel.Frame
import proofs.«140926_j21706764714263_1_alg».proof.Proof.Gen.KernelIdeal
import proofs.«140926_j21706764714263_1_alg».proof.Proof.Gen.KernelIdeal.Skeleton
import proofs.«140926_j21706764714263_1_alg».proof.Proof.Gen.KernelIdeal.Launch
import proofs.«140926_j21706764714263_1_alg».proof.Proof.Gen.KernelIdeal.Points
import proofs.«140926_j21706764714263_1_alg».proof.Proof.Gen.KernelIdeal.Frame
import proofs.«140926_j21706764714263_1_alg».proof.Proof.Gen.ReferenceIdeal
import proofs.«140926_j21706764714263_1_alg».proof.Proof.Gen.Pre_finite_inputs
import proofs.«140926_j21706764714263_1_alg».proof.Proof.Gen.KernelIdeal.Value
import proofs.«140926_j21706764714263_1_alg».proof.Proof.Gen.ReferenceIdeal.Run
import proofs.«140926_j21706764714263_1_alg».proof.Proof.Gen.ReferenceIdeal.Read
import proofs.«140926_j21706764714263_1_alg».proof.Proof.RefValue
import proofs.«140926_j21706764714263_1_alg».proof.Proof.Final
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the dense layer of their arguments, and the arguments agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_is_dense,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
